-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩
abbrev S2048x2048 : Shape := ⟨2, ![2048, 2048]⟩
abbrev S2048x64 : Shape := ⟨2, ![2048, 64]⟩

abbrev nBuf : Space → Nat
  | .hbm => 6
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S2048x64, .f32⟩
  | .local _ .vmem, ⟨4, _⟩ => ⟨S64x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  inb_S2048x2048_S2048x2048_0_0 : ∀ a, (![0, 0] : Fin 2 → Nat) a + S2048x2048.size a ≤ S2048x2048.size a
  h_S2048x2048 : 0 < S2048x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S2048x64_S64x64_S2048x64_1_0_0_1_n_n_wf : DotDims.WF S2048x64 S64x64 S2048x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KernelPieces.lean ====
/-
  What one run of the kernel body leaves in the accumulator and in the output tile, as values.

  The body's run at a grid point is recorded as the list of stores it made into each buffer. Each buffer here is
  stored whole, so what it ends holding is the payload of its last store, with every load of the body reading a whole
  buffer: the adjacency tile `a`, the feature tile `xt`, the weights `w`, the bias row, and the accumulator — either
  what the point before left in it, or, at the first point of a grid row, the zero tile just stored.
-/
import proofs.«122535_j90975997264005_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg2 : Memref sig .tc .vmem S2048x2048 .f32) (harg2 : arg2.IsWhole) (arg3 : Memref sig .tc .vmem S2048x64 .f32) (harg3 : arg3.IsWhole)
  (arg4 : Memref sig .tc .vmem S64x64 .f32) (harg4 : arg4.IsWhole) (arg5 : Memref sig .tc .vmem S1x64 .f32) (harg5 : arg5.IsWhole)
  (arg6 : Memref sig .tc .vmem S2048x64 .f32) (harg6 : arg6.IsWhole) (arg7 : Memref sig .tc .vmem S2048x64 .f32) (harg7 : arg7.IsWhole)
  (a : Vec F S2048x2048 .f32) (xt : Vec F S2048x64 .f32) (w : Vec F S64x64 .f32) (brow : Vec F S1x64 .f32)

/-- First point of a grid row: the accumulator is reset to the zero tile and one step is accumulated onto it. -/
theorem scratch_first (hc0 : cond0_0 i) (hc1 : ¬cond0_1 i) :
    sout0_A_0 c i arg2 harg2 arg3 harg3 arg4 harg4 arg5 harg5 arg6 harg6 arg7 harg7 hc0 hc1 a xt w brow
      = k0_pay2 xt w k0_pay1 a := by
  unfold sout0_A_0
  rw [View.read_writes_eq_canon _ _ _ (scover0_A_0 c i arg2 harg2 arg3 harg3 arg4 harg4 arg5 harg5 arg6 harg6 arg7 harg7 hc0 hc1 a xt w brow)]
  unfold kernelRun0_A
  dsimp only
  sl_unfold_words
  rw [View.canon_cons_unit_zero (S := S2048x64) hz, View.readCov_unit_zero (S := S2048x64) _ hz]
  simp only [View.readAt_eq_ld, harg2.read_unread, harg3.read_unread, harg4.read_unread,
    View.ld_unit_zero (S := S2048x64) hz, View.ld_unit_zero (S := S64x64) hz, View.ld_unit_zero (S := S2048x2048) hz]

/-- A later point of the grid row: one step is accumulated onto what the point before left. -/
theorem scratch_next (hc0 : ¬cond0_0 i) (hc1 : ¬cond0_1 i) (acc : Vec F S2048x64 .f32) :
    sout0_B_0 c i arg2 harg2 arg3 harg3 arg4 harg4 arg5 harg5 arg6 harg6 arg7 harg7 hc0 hc1 a xt w brow acc
      = k0_pay2 xt w acc a := by
  unfold sout0_B_0
  rw [View.read_writes_eq_canon _ _ _ (scover0_B_0 c i arg2 harg2 arg3 harg3 arg4 harg4 arg5 harg5 arg6 harg6 arg7 harg7 hc0 hc1 a xt w brow acc)]
  unfold kernelRun0_B
  dsimp only
  sl_unfold_words
  rw [View.canon_unit_zero (S := S2048x64) hz]
  simp only [View.readAt_eq_ld, harg2.read_unread, harg3.read_unread, harg4.read_unread, harg7.read_unread,
    View.ld_unit_zero (S := S2048x64) hz, View.ld_unit_zero (S := S64x64) hz, View.ld_unit_zero (S := S2048x2048) hz]

/-- The last point of the grid row accumulates its step in the same way. -/
theorem scratch_last (hc0 : ¬cond0_0 i) (hc1 : cond0_1 i) (acc : Vec F S2048x64 .f32) :
    sout0_C_0 c i arg2 harg2 arg3 harg3 arg4 harg4 arg5 harg5 arg6 harg6 arg7 harg7 hc0 hc1 a xt w brow acc
      = k0_pay2 xt w acc a := by
  unfold sout0_C_0
  rw [View.read_writes_eq_canon _ _ _ (scover0_C_0 c i arg2 harg2 arg3 harg3 arg4 harg4 arg5 harg5 arg6 harg6 arg7 harg7 hc0 hc1 a xt w brow acc)]
  unfold kernelRun0_C
  dsimp only
  sl_unfold_words
  rw [View.canon_unit_zero (S := S2048x64) hz]
  simp only [View.readAt_eq_ld, harg2.read_unread, harg3.read_unread, harg4.read_unread, harg7.read_unread,
    View.ld_unit_zero (S := S2048x64) hz, View.ld_unit_zero (S := S64x64) hz, View.ld_unit_zero (S := S2048x2048) hz]

/-- … and then stores the output tile: the accumulator it has just stored, read back, plus the bias row. -/
theorem output_last (hc0 : ¬cond0_0 i) (hc1 : cond0_1 i) (acc : Vec F S2048x64 .f32) :
    out0_C_4 c i arg2 harg2 arg3 harg3 arg4 harg4 arg5 harg5 arg6 harg6 arg7 harg7 hc0 hc1 a xt w brow acc
      = k0_pay3 (k0_pay2 xt w acc a) brow := by
  unfold out0_C_4
  rw [View.read_writes_eq_canon _ _ _ (cover0_C_4 c i arg2 harg2 arg3 harg3 arg4 harg4 arg5 harg5 arg6 harg6 arg7 harg7 hc0 hc1 a xt w brow acc)]
  unfold kernelRun0_C
  dsimp only
  sl_unfold_words
  rw [View.canon_unit_zero (S := S2048x64) hz, View.readCov_unit_zero (S := S2048x64) _ hz]
  simp only [View.readAt_eq_ld, harg2.read_unread, harg3.read_unread, harg4.read_unread, harg5.read_unread,
    harg7.read_unread, View.ld_unit_zero (S := S2048x64) hz, View.ld_unit_zero (S := S64x64) hz,
    View.ld_unit_zero (S := S2048x2048) hz, View.ld_unit_zero (S := S1x64) hz]

end Cert.KernelIdeal.Pieces

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelTile.lean ====
/-
  What the kernel body computes at one grid point, entry by entry, over the extended reals.

  The body holds an accumulator tile `acc : [2048, 64]`. At a point it loads an adjacency tile `a : [2048, 2048]`, a
  feature tile `xt : [2048, 64]` and the weights `w : [64, 64]`, and stores

      acc (r, j) + ∑ k, a (r, k) · (∑ l, xt (k, l) · w (l, j))

  back into the accumulator: two matrix products into zero matrices, the inner one the transformed features of the
  tile's 2048 nodes, and one addition. At the first point of a row of the grid the accumulator is first set to the zero
  tile; at the last it is read back and the bias row `[1, 64]`, repeated down the 2048 rows, is added to give the output
  tile.
-/
import proofs.«122535_j90975997264005_2_alg».proof.Proof.Gen.KernelIdeal.Skeleton
import proofs.«122535_j90975997264005_2_alg».proof.Proof.LibPlainMatmul
import proofs.«122535_j90975997264005_2_alg».proof.Proof.LibRows
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The tile the accumulator is reset to is zero everywhere. -/
theorem reset_apply (i : S2048x64.Idx) : k0_pay1 (F := Ideal) i = 0 := by
  unfold k0_pay1
  simp only [shapeCast_self]
  exact Ideal.ofBits_zero_f32

/-- One accumulation step at entry `(r, j)`: the accumulator's entry plus the adjacency tile's row `r` against
    column `j` of the feature tile times the weights. -/
theorem accumulate_apply (xt : Vec Ideal S2048x64 .f32) (w : Vec Ideal S64x64 .f32) (acc : Vec Ideal S2048x64 .f32)
    (a : Vec Ideal S2048x2048 .f32) (r : Fin 2048) (j : Fin 64) :
    k0_pay2 (F := Ideal) xt w acc a (ix2 r j)
      = acc (ix2 r j) + ∑ k : Fin 2048, a (ix2 r k) * ∑ l : Fin 64, xt (ix2 k l) * w (ix2 l j) := by
  unfold k0_pay2
  simp only [shapeCast_self]
  refine (addf_apply _ _ _).trans (congrArg (acc (ix2 r j) + ·) ?_)
  refine (LibPlainMatmul.matmul_zero_apply _ rfl rfl rfl rfl rfl rfl none _ _ r j).trans ?_
  refine Finset.sum_congr rfl fun k _ => congrArg (a (ix2 r k) * ·) ?_
  exact LibPlainMatmul.matmul_zero_apply _ rfl rfl rfl rfl rfl rfl none _ _ k j

/-- The output tile at entry `(r, j)`: the accumulator's entry plus the bias row's entry in column `j`. -/
theorem output_apply (acc : Vec Ideal S2048x64 .f32) (brow : Vec Ideal S1x64 .f32) (r : Fin 2048) (j : Fin 64) :
    k0_pay3 (F := Ideal) acc brow (ix2 r j) = acc (ix2 r j) + brow (ix2 0 j) := by
  unfold k0_pay3
  simp only [shapeCast_self]
  refine (addf_apply _ _ _).trans (congrArg (acc (ix2 r j) + ·) ?_)
  exact Rows.bcast_row (by decide) brow _ r j

end Cert.KernelIdeal.Tile

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.GraphConv.lean ====
/-
  The graph convolution as one function of its four arrays, and its sum over the neighbours cut into tiles.

  For features `x : [16384, 64]`, adjacency `adj : [16384, 16384]`, weights `w : [64, 64]` and bias `b : [64]`,
  over the extended reals,

      support (k, j) = ∑ l, x (k, l) · w (l, j)
      conv (i, j)    = (∑ k, adj (i, k) · support (k, j)) + b j.

  The 16384 neighbours `k` are cut into 8 tiles of 2048 consecutive ones, `k = 2048 q + k'`. The sum over `k` is the
  sum over the tiles `q` of the sums inside each tile: addition on the extended reals is commutative and
  associative, and that is all the regrouping uses — no product is distributed, so no finiteness is needed.
  `running` is the partial sum over the tiles `0 … s`: it starts at tile 0's sum, grows by one tile's sum at a
  time, and at `s = 7` it is the whole sum over the neighbours.
-/
import Idealize.ShloMosaic.PureOps.Ideal
import Idealize.ShloMosaic.Lib.ValueIdx
import proofs.«122535_j90975997264005_2_alg».proof.Proof.LibERealSums

noncomputable section

namespace Cert.GraphConv

open Idealize.ShloMosaic Idealize.ShloMosaic.ValueIdx

/-- Node `2048 q + r`: the `r`-th node of the `q`-th tile of 2048 consecutive nodes. -/
def node (q : Fin 8) (r : Fin 2048) : Fin 16384 :=
  ⟨2048 * q.val + r.val, by have := q.isLt; have := r.isLt; omega⟩

theorem node_val (q : Fin 8) (r : Fin 2048) : (node q r).val = 2048 * q.val + r.val := rfl

variable (x : (⟨2, ![16384, 64]⟩ : Shape).Idx → EReal) (adj : (⟨2, ![16384, 16384]⟩ : Shape).Idx → EReal)
  (w : (⟨2, ![64, 64]⟩ : Shape).Idx → EReal) (b : (⟨1, ![64]⟩ : Shape).Idx → EReal)

/-- The transformed features of node `k`: `(x · w) (k, j)`. -/
def support (k : Fin 16384) (j : Fin 64) : EReal := ∑ l : Fin 64, x (ix2 k l) * w (ix2 l j)

/-- The graph convolution: `adj · (x · w) + b`, entry by entry. -/
def conv : (⟨2, ![16384, 64]⟩ : Shape).Idx → EReal :=
  fun i => (∑ k : Fin 16384, adj (ix2 (i 0) k) * support x w k (i 1)) + b (ix1 (i 1))

/-- What the neighbours of tile `q` contribute to the entry at row `r` of row tile `p`, column `j`. -/
def tile (p q : Fin 8) (r : Fin 2048) (j : Fin 64) : EReal :=
  ∑ k : Fin 2048, adj (ix2 (node p r) (node q k)) * support x w (node q k) j

/-- The contributions of the neighbour tiles `0 … s`, summed. -/
def running (p : Fin 8) (s : ℕ) (r : Fin 2048) (j : Fin 64) : EReal :=
  ∑ q : Fin 8, if q.val ≤ s then tile x adj w p q r j else 0

/-- After the first tile the partial sum is that tile's contribution. -/
theorem running_zero (p : Fin 8) (r : Fin 2048) (j : Fin 64) :
    running x adj w p 0 r j = tile x adj w p 0 r j := by
  unfold running
  rw [Finset.sum_eq_single (0 : Fin 8)]
  · exact if_pos (Nat.le_refl 0)
  · intro q _ hq
    exact if_neg fun h => hq (Fin.ext (Nat.le_zero.mp h))
  · intro h; exact absurd (Finset.mem_univ _) h

/-- One more tile adds its contribution. -/
theorem running_succ (p : Fin 8) (s : ℕ) (hs : s + 1 < 8) (r : Fin 2048) (j : Fin 64) :
    running x adj w p (s + 1) r j = running x adj w p s r j + tile x adj w p ⟨s + 1, hs⟩ r j := by
  unfold running
  have split : ∀ q : Fin 8, (if q.val ≤ s + 1 then tile x adj w p q r j else 0)
      = (if q.val ≤ s then tile x adj w p q r j else 0) + (if q = ⟨s + 1, hs⟩ then tile x adj w p q r j else 0) := by
    intro q
    by_cases h1 : q.val ≤ s
    · rw [if_pos h1, if_pos (Nat.le_succ_of_le h1), if_neg (fun e => by rw [e] at h1; exact absurd h1 (Nat.not_succ_le_self s)),
        add_zero]
    · by_cases h2 : q.val = s + 1
      · rw [if_neg h1, if_pos (Nat.le_of_eq h2), if_pos (Fin.ext h2), zero_add]
      · rw [if_neg h1, if_neg (by omega), if_neg (fun e => h2 (by rw [e])), add_zero]
  rw [Finset.sum_congr rfl fun q _ => split q, Finset.sum_add_distrib, Finset.sum_ite_eq' Finset.univ (⟨s + 1, hs⟩ : Fin 8),
    if_pos (Finset.mem_univ _)]

/-- After the last tile the partial sum is the sum over all 16384 neighbours. -/
theorem running_last (p : Fin 8) (r : Fin 2048) (j : Fin 64) :
    running x adj w p 7 r j = ∑ k : Fin 16384, adj (ix2 (node p r) k) * support x w k j := by
  unfold running
  rw [LibERealSums.sum_fin_blocks (by norm_num : 8 * 2048 = 16384) node node_val]
  refine Finset.sum_congr rfl fun q _ => ?_
  rw [if_pos (by have := q.isLt; omega)]
  rfl

/-- The convolution at row `r` of row tile `p`: all eight tiles' contributions, plus the bias. -/
theorem conv_node (p : Fin 8) (r : Fin 2048) (j : Fin 64) :
    conv x adj w b (ix2 (node p r) j) = running x adj w p 7 r j + b (ix1 j) := by
  rw [running_last]
  rfl

end Cert.GraphConv

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.KernelBlocks.lean ====
/-
  The blocks the kernel reads at a grid point, entry by entry, as entries of the argument arrays.

  The grid is 8 × 8, its points numbered row by row: point `t` is row tile `p = t / 8`, neighbour tile `q = t % 8`.
  There the adjacency window holds rows `2048 p + r`, columns `2048 q + k` of `adj`; the feature window rows
  `2048 q + k` of `x`; the weight window all of `w`; the bias window the bias laid out as one row; and the output
  window is rows `2048 p + r` of the result.
-/
import proofs.«122535_j90975997264005_2_alg».proof.Proof.Gen.KernelIdeal.Frame
import proofs.«122535_j90975997264005_2_alg».proof.Proof.GraphConv
import proofs.«122535_j90975997264005_2_alg».proof.Proof.LibRowBroadcast
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.GraphConv

variable {F : FTy → Type} [FloatOps F]
variable (m : (ℓ : Loc nD τ sig) → Buf (Elt F) ℓ)

/-- The windows' block indices at point `t`: row tile `t / 8`, neighbour tile `t % 8`. -/
theorem index_maps : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The adjacency block: rows of tile `p`, columns of tile `q`. -/
theorem adj_block (c : Dev nD) (t : Fin cfg0.N) (p q : Fin 8) (hp : p.val = t.val / 8) (hq : q.val = t.val % 8)
    (r k : Fin 2048) :
    (iblk m c 0 t : Vec F S2048x2048 .f32) (ix2 r k)
      = m ((c : Thread nD τ).loc main_arg1) (ix2 (node p r) (node q k)) := by
  obtain ⟨e0, e1, -⟩ := index_maps t
  show V m c main_arg1 (((cfg0.win 0).blk t).view.emb (ix2 r k)) = _
  rw [V_main_arg1]
  refine congrArg _ (funext fun a => Fin.ext ?_)
  match a with
  | ⟨0, _⟩ => show win0_0.index t (0 : Fin 2) * 2048 + 1 * r.val = 2048 * p.val + r.val; omega
  | ⟨1, _⟩ => show win0_0.index t (1 : Fin 2) * 2048 + 1 * k.val = 2048 * q.val + k.val; omega

/-- The feature block: rows of tile `q`. -/
theorem feature_block (c : Dev nD) (t : Fin cfg0.N) (q : Fin 8) (hq : q.val = t.val % 8) (k : Fin 2048) (l : Fin 64) :
    (iblk m c 1 t : Vec F S2048x64 .f32) (ix2 k l) = m ((c : Thread nD τ).loc main_arg0) (ix2 (node q k) l) := by
  obtain ⟨-, -, e0, e1, -⟩ := index_maps t
  show V m c main_arg0 (((cfg0.win 1).blk t).view.emb (ix2 k l)) = _
  rw [V_main_arg0]
  refine congrArg _ (funext fun a => Fin.ext ?_)
  match a with
  | ⟨0, _⟩ => show win0_1.index t (0 : Fin 2) * 2048 + 1 * k.val = 2048 * q.val + k.val; omega
  | ⟨1, _⟩ => show win0_1.index t (1 : Fin 2) * 64 + 1 * l.val = l.val; omega

/-- The weight block is the whole weight matrix. -/
theorem weight_block (c : Dev nD) (t : Fin cfg0.N) (l j : Fin 64) :
    (iblk m c 2 t : Vec F S64x64 .f32) (ix2 l j) = m ((c : Thread nD τ).loc main_arg2) (ix2 l j) := by
  obtain ⟨-, -, -, -, e0, e1, -⟩ := index_maps t
  show V m c main_arg2 (((cfg0.win 2).blk t).view.emb (ix2 l j)) = _
  rw [V_main_arg2]
  refine congrArg _ (funext fun a => Fin.ext ?_)
  match a with
  | ⟨0, _⟩ => show win0_2.index t (0 : Fin 2) * 64 + 1 * l.val = l.val; omega
  | ⟨1, _⟩ => show win0_2.index t (1 : Fin 2) * 64 + 1 * j.val = j.val; omega

/-- The bias block is the bias vector laid out as one row. -/
theorem bias_block (c : Dev nD) (t : Fin cfg0.N) (j : Fin 64) :
    (iblk m c 3 t : Vec F S1x64 .f32) (ix2 0 j) = m ((c : Thread nD τ).loc main_arg3) (ix1 j) := by
  obtain ⟨-, -, -, -, -, -, e0, e1, -⟩ := index_maps t
  have hv : (V m c main_v0 : S1x64.Idx → Elt F .f32)
      = shapeCast S1x64 (m ((c : Thread nD τ).loc main_arg3)) shapeCasts_S64_S1x64 := by
    dsimp only [Gen.V, Gen.hostOps0]; after_results; rfl
  show V m c main_v0 (((cfg0.win 3).blk t).view.emb (ix2 0 j)) = _
  have e : ((cfg0.win 3).blk t).view.emb (ix2 0 j) = ix2 0 j := funext fun a => Fin.ext (by
    match a with
    | ⟨0, _⟩ => show win0_3.index t (0 : Fin 2) * 1 + 1 * 0 = 0; omega
    | ⟨1, _⟩ => show win0_3.index t (1 : Fin 2) * 64 + 1 * j.val = j.val; omega)
  rw [e, hv]
  exact LibRowBroadcast.row_cast _ _ j

/-- The output block at point `t`: rows of tile `p`. -/
theorem output_index (t : Fin cfg0.N) (p : Fin 8) (hp : p.val = t.val / 8) (r : Fin 2048) (j : Fin 64) :
    ((cfg0.win 4).blk t).view.emb (ix2 r j) = ix2 (node p r) j := by
  obtain ⟨-, -, -, -, -, -, -, -, e0, e1⟩ := index_maps t
  refine funext fun a => Fin.ext ?_
  match a with
  | ⟨0, _⟩ => show win0_4.index t (0 : Fin 2) * 2048 + 1 * r.val = 2048 * p.val + r.val; omega
  | ⟨1, _⟩ => show win0_4.index t (1 : Fin 2) * 64 + 1 * j.val = j.val; omega

end Cert.KernelIdeal.Blocks

end
-- ==== Proof.KernelAccum.lean ====
/-
  The kernel's result array is the graph convolution of its arguments.

  Along a grid row (row tile `p`, neighbour tiles `q = 0 … 7` in order) the accumulator holds, after the point of
  neighbour tile `q`, the contributions of the neighbour tiles `0 … q` summed: it is reset to zero and given tile 0's
  contribution at the row's first point, and each later point adds its own tile's. By induction on the point this is
  the partial sum `running`; the induction never leaves a grid row, because the first point of each row resets. At
  the row's last point the accumulator is the sum over all 16384 neighbours, the body adds the bias and stores the
  output tile, and that tile — rows `2048 p … 2048 p + 2047` of the result — is written back. The eight written
  blocks cover the result array, each a block of the one function `conv`.
-/
import proofs.«122535_j90975997264005_2_alg».proof.Proof.Gen.KernelIdeal.Value
import proofs.«122535_j90975997264005_2_alg».proof.Proof.KernelPieces
import proofs.«122535_j90975997264005_2_alg».proof.Proof.KernelTile
import proofs.«122535_j90975997264005_2_alg».proof.Proof.KernelBlocks
import proofs.«122535_j90975997264005_2_alg».proof.Proof.GraphConv

noncomputable section

namespace Cert.KernelIdeal.Accum

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-- The four argument arrays as launched: features, adjacency, weights, bias. -/
abbrev X (c : Dev nD) : (⟨2, ![16384, 64]⟩ : Shape).Idx → EReal := m ((c : Thread nD τ).loc main_arg0)
abbrev A (c : Dev nD) : (⟨2, ![16384, 16384]⟩ : Shape).Idx → EReal := m ((c : Thread nD τ).loc main_arg1)
abbrev W (c : Dev nD) : (⟨2, ![64, 64]⟩ : Shape).Idx → EReal := m ((c : Thread nD τ).loc main_arg2)
abbrev B (c : Dev nD) : (⟨1, ![64]⟩ : Shape).Idx → EReal := m ((c : Thread nD τ).loc main_arg3)

/-- One accumulation step at point `t` (row tile `p`, neighbour tile `q`), at entry `(r, j)`: the accumulator's entry plus
    tile `q`'s contribution to row `2048 p + r`. -/
theorem step_apply (c : Dev nD) (t : Fin cfg0.N) (p q : Fin 8) (hp : p.val = t.val / 8) (hq : q.val = t.val % 8)
    (acc : Vec Ideal S2048x64 .f32) (r : Fin 2048) (j : Fin 64) :
    k0_pay2 (F := Ideal) (iblk m c 1 t) (iblk m c 2 t) acc (iblk m c 0 t) (ix2 r j)
      = acc (ix2 r j) + tile (X m c) (A m c) (W m c) p q r j := by
  unfold tile support
  refine (Tile.accumulate_apply (iblk m c 1 t) (iblk m c 2 t) acc (iblk m c 0 t) r j).trans ?_
  refine congrArg (acc (ix2 r j) + ·) (Finset.sum_congr rfl fun k _ => ?_)
  refine congrArg₂ (· * ·) (Blocks.adj_block m c t p q hp hq r k) (Finset.sum_congr rfl fun l _ => ?_)
  exact congrArg₂ (· * ·) (Blocks.feature_block m c t q hq k l) (Blocks.weight_block m c t l j)

/-- THE ACCUMULATOR after point `n`: the contributions of the neighbour tiles `0 … n % 8` to the rows of tile `n / 8`. -/
theorem scratch_eq (c : Dev nD) : ∀ (n : ℕ) (h : n < cfg0.N) (p : Fin 8), p.val = n / 8 →
    (outsAt0 m c n h).2 = fun i => running (X m c) (A m c) (W m c) p (n % 8) (i 0) (i 1)
  | 0, h, p, hp => by
    rw [outsAt0_A m c ⟨0, h⟩ (Nat.zero_mod 8) (by show ¬0 % 8 = 7; decide)]
    dsimp only
    refine (Pieces.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) (iblk m c 0 ⟨0, h⟩) (iblk m c 1 ⟨0, h⟩) (iblk m c 2 ⟨0, h⟩) (iblk m c 3 ⟨0, h⟩) _ _).trans ?_
    funext i
    obtain ⟨r, j, rfl⟩ : ∃ (r : Fin 2048) (j : Fin 64), i = ix2 r j := ⟨i 0, i 1, eq_ix2 i⟩
    refine (step_apply m c ⟨0, h⟩ p 0 hp rfl (k0_pay1 (F := Ideal)) r j).trans ?_
    rw [Tile.reset_apply, zero_add]
    exact (running_zero (X m c) (A m c) (W m c) p r j).symm
  | n + 1, h, p, hp => by
    have hN : n + 1 < 64 := lt_of_lt_of_eq h N_0
    by_cases h0 : (n + 1) % 8 = 0
    · have h1 : ¬(n + 1) % 8 = 7 := by omega
      rw [outsAt0_A m c ⟨n + 1, h⟩ h0 h1]
      dsimp only
      refine (Pieces.scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) _ _).trans ?_
      funext i
      obtain ⟨r, j, rfl⟩ : ∃ (r : Fin 2048) (j : Fin 64), i = ix2 r j := ⟨i 0, i 1, eq_ix2 i⟩
      refine (step_apply m c ⟨n + 1, h⟩ p 0 hp h0.symm (k0_pay1 (F := Ideal)) r j).trans ?_
      rw [Tile.reset_apply, zero_add, h0]
      exact (running_zero (X m c) (A m c) (W m c) p r j).symm
    · have hp' : p.val = n / 8 := by rw [hp]; omega
      have hq : (n + 1) % 8 = n % 8 + 1 := by omega
      have hs : n % 8 + 1 < 8 := by omega
      by_cases h1 : (n + 1) % 8 = 7
      · rw [outsAt0_C m c ⟨n + 1, h⟩ h0 h1]
        dsimp only
        refine (Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) _ _ _).trans ?_
        funext i
        obtain ⟨r, j, rfl⟩ : ∃ (r : Fin 2048) (j : Fin 64), i = ix2 r j := ⟨i 0, i 1, eq_ix2 i⟩
        refine (step_apply m c ⟨n + 1, h⟩ p ⟨n % 8 + 1, hs⟩ hp hq.symm _ r j).trans ?_
        show (outsAt0 m c n (Nat.lt_of_succ_lt h)).2 (ix2 r j) + _ = _
        rw [scratch_eq c n (Nat.lt_of_succ_lt h) p hp', hq]
        exact (running_succ (X m c) (A m c) (W m c) p (n % 8) hs r j).symm
      · rw [outsAt0_B m c ⟨n + 1, h⟩ h0 h1]
        dsimp only
        refine (Pieces.scratch_next (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) _ _ _).trans ?_
        funext i
        obtain ⟨r, j, rfl⟩ : ∃ (r : Fin 2048) (j : Fin 64), i = ix2 r j := ⟨i 0, i 1, eq_ix2 i⟩
        refine (step_apply m c ⟨n + 1, h⟩ p ⟨n % 8 + 1, hs⟩ hp hq.symm _ r j).trans ?_
        show (outsAt0 m c n (Nat.lt_of_succ_lt h)).2 (ix2 r j) + _ = _
        rw [scratch_eq c n (Nat.lt_of_succ_lt h) p hp', hq]
        exact (running_succ (X m c) (A m c) (W m c) p (n % 8) hs r j).symm

/-- At the last point of a grid row the output tile is the accumulator as that point leaves it, plus the bias row. -/
theorem output_rel (c : Dev nD) (t : Fin cfg0.N) (h7 : t.val % 8 = 7) :
    (outsAt0 m c t.val t.isLt).1 = k0_pay3 (F := Ideal) (outsAt0 m c t.val t.isLt).2 (iblk m c 3 t) := by
  have h0 : ¬t.val % 8 = 0 := by omega
  rw [outsAt0_C m c t h0 h7]
  dsimp only
  exact (Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ _
      ((outsAt0 m c (t.val - 1) (Nat.lt_of_le_of_lt (Nat.sub_le _ _) t.isLt)).2)).trans
    (congrArg (k0_pay3 (F := Ideal) · (iblk m c 3 t))
      (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ _
        ((outsAt0 m c (t.val - 1) (Nat.lt_of_le_of_lt (Nat.sub_le _ _) t.isLt)).2)).symm)

/-- THE OUTPUT TILE at the last point of grid row `p`: the convolution's rows `2048 p + r`. -/
theorem output_eq (c : Dev nD) (t : Fin cfg0.N) (h7 : t.val % 8 = 7) (p : Fin 8) (hp : p.val = t.val / 8) :
    (outsAt0 m c t.val t.isLt).1
      = fun i => conv (X m c) (A m c) (W m c) (B m c) (ix2 (node p (i 0)) (i 1)) := by
  rw [output_rel m c t h7, scratch_eq m c t.val t.isLt p hp]
  funext i
  obtain ⟨r, j, rfl⟩ : ∃ (r : Fin 2048) (j : Fin 64), i = ix2 r j := ⟨i 0, i 1, eq_ix2 i⟩
  refine (Tile.output_apply _ (iblk m c 3 t) r j).trans ?_
  show running (X m c) (A m c) (W m c) p (t.val % 8) r j + _ = conv (X m c) (A m c) (W m c) (B m c) (ix2 (node p r) j)
  rw [Blocks.bias_block m c t j, h7]
  exact (conv_node (X m c) (A m c) (W m c) (B m c) p r j).symm

/-- WHAT A WRITING POINT WRITES BACK is its block of the convolution. -/
theorem flushed_eq (c : Dev nD) (t : Fin cfg0.N) (hf : (cfg0.win 4).flush t = true) :
    (dats m 0 c).flushed 4 t = ((cfg0.win 4).blk t).view.read (Elt Ideal) (conv (X m c) (A m c) (W m c) (B m c)) := by
  have h7 : t.val % 8 = 7 := (flush0_4 t).mp hf
  have hN : t.val < 64 := lt_of_lt_of_eq t.isLt N_0
  rw [Value.flushed4, output_eq m c t h7 ⟨t.val / 8, by omega⟩ rfl]
  funext y
  obtain ⟨r, j, rfl⟩ : ∃ (r : Fin 2048) (j : Fin 64), y = ix2 r j := ⟨y 0, y 1, eq_ix2 (n0 := 2048) (n1 := 64) y⟩
  show conv (X m c) (A m c) (W m c) (B m c) (ix2 (node ⟨t.val / 8, _⟩ r) j)
    = conv (X m c) (A m c) (W m c) (B m c) (((cfg0.win 4).blk t).view.emb (ix2 r j))
  rw [Blocks.output_index t ⟨t.val / 8, by omega⟩ rfl r j]

/-- An index of the result is in point `t`'s block iff each coordinate is in the block's range on its axis. -/
theorem mem_blk (t : Fin cfg0.N) (i : S16384x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v1).slice (win0_4.rect t)).set ↔ _
  rw [View.set_slice_whole, Rect.mem_set_unit]
  exact Iff.rfl

/-- Every entry of the result is in the block some writing point writes: row `i` is written at the last point of grid
    row `i / 2048`. -/
theorem cover (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 64 := N_0
  obtain ⟨t, ht⟩ : ∃ t : Fin cfg0.N, t.val = 8 * ((i 0).val / 2048) + 7 := ⟨⟨_, by rw [hN]; omega⟩, rfl⟩
  refine ⟨t, (flush0_4 t).mpr (by omega), ?_⟩
  rw [mem_blk]
  obtain ⟨-, -, -, -, -, -, -, -, e0, e1⟩ := Blocks.index_maps t
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 64 ≤ (i 1).val ∧ (i 1).val < win0_4.index t (1 : Fin 2) * 64 + 64
    omega

/-- THE RESULT ARRAY after the run is the graph convolution of the arguments. -/
theorem final (c : Dev nD) : (dats m 0 c).arrAt 4 cfg0.N = conv (X m c) (A m c) (W m c) (B m c) :=
  (dats m 0 c).arrAt_eq_of_cover 4 (conv (X m c) (A m c) (W m c) (B m c)) (fun t hf => flushed_eq m c t hf) cover

/-- The kernel's run: every weakly fair execution terminates with the result array at the graph convolution of the
    arguments and the arguments unchanged. -/
theorem run : θ_run defs (onTc (τ := τ) (main (F := Ideal))) ⟨m, fun _ => 0, ρ⟩ fun r => ∀ c : Dev nD,
      r.2.mem ((c : Thread nD τ).loc main_v1) = conv (X m c) (A m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Accum

end
-- ==== Proof.Reference.lean ====
/-
  The reference computes the graph convolution: entry by entry its result is
  `(∑ k, adj (i, k) · (∑ l, x (k, l) · w (l, j))) + b j`.

  Its two matrix products are read as sums over their one contracted axis, and the bias, laid out as a row and repeated
  down the 16384 rows, is read at its column.
-/
import proofs.«122535_j90975997264005_2_alg».proof.Proof.Gen.ReferenceIdeal.Read
import proofs.«122535_j90975997264005_2_alg».proof.Proof.GraphConv

noncomputable section

namespace Cert.ReferenceIdeal.RefValue

open Cert.ReferenceIdeal Cert.ReferenceIdeal.Read Idealize.ShloMosaic Idealize.ShloMosaic.ValueIdx

/-- Row `i 0` of the adjacency against neighbour `k`. -/
theorem adj_index (i : S16384x64.Idx) (k : Fin 16384) : lidx_main_v1 i k = ix2 (i 0) k :=
  funext fun a => Fin.ext (by match a with | ⟨0, _⟩ => rfl | ⟨1, _⟩ => rfl)

/-- The transformed features of neighbour `k`, column `i 1`. -/
theorem support_index (i : S16384x64.Idx) (k : Fin 16384) : ridx_main_v1 i k = ix2 k (i 1) :=
  funext fun a => Fin.ext (by match a with | ⟨0, _⟩ => rfl | ⟨1, _⟩ => rfl)

/-- Feature `l` of neighbour `k`. -/
theorem feature_index (i : S16384x64.Idx) (k : Fin 16384) (l : Fin 64) : lidx_main_v0 (ridx_main_v1 i k) l = ix2 k l :=
  funext fun a => Fin.ext (by match a with | ⟨0, _⟩ => rfl | ⟨1, _⟩ => rfl)

/-- Weight from feature `l` to column `i 1`. -/
theorem weight_index (i : S16384x64.Idx) (k : Fin 16384) (l : Fin 64) : ridx_main_v0 (ridx_main_v1 i k) l = ix2 l (i 1) :=
  funext fun a => Fin.ext (by match a with | ⟨0, _⟩ => rfl | ⟨1, _⟩ => rfl)

/-- The bias entry of column `i 1`. -/
theorem bias_index (i : S16384x64.Idx) : idx_main_v2 (idx_main_v3 i) = ix1 (i 1) :=
  funext fun a => Fin.ext (by match a with | ⟨0, _⟩ => rfl)

/-- The reference's result is the graph convolution of its four arguments. -/
theorem reference_eq (x : (⟨S16384x64, .f32⟩ : BufTy).Contents (Elt Ideal)) (adj : (⟨S16384x16384, .f32⟩ : BufTy).Contents (Elt Ideal))
    (w : (⟨S64x64, .f32⟩ : BufTy).Contents (Elt Ideal)) (b : (⟨S64, .f32⟩ : BufTy).Contents (Elt Ideal)) :
    val_main_v4 (F := Ideal) x adj w b = GraphConv.conv x adj w b := by
  funext i
  rw [val_main_v4_apply, val_main_v1_apply, val_main_v3_apply, val_main_v2_apply]
  simp only [val_main_v0_apply, feature_index, weight_index, adj_index, bias_index, Ideal.addf_def]
  unfold GraphConv.conv GraphConv.support
  rfl

end Cert.ReferenceIdeal.RefValue

end
-- ==== Proof.lean ====
/-
  A graph convolution, `adj · (x · w) + b`, computed tile by tile, against the plain two-product reference.

  The kernel walks an 8 × 8 grid over the 16384 × 16384 adjacency matrix: for each row tile of 2048 nodes it runs over
  the eight tiles of 2048 neighbours, at each one transforms the tile's features (`x · w` on 2048 rows), multiplies
  by the adjacency tile and adds the product into an accumulator that it zeroes at the first neighbour tile; at the
  last it adds the bias and writes the row tile of the result. The reference transforms all features, multiplies by
  the whole adjacency matrix, and adds the bias.

  Over the extended reals both are, at entry `(i, j)`,

      (∑ k, adj (i, k) · (∑ l, x (k, l) · w (l, j))) + b j,

  the kernel's sum over `k` taken as the sum over the eight neighbour tiles of the sums inside each tile. The two
  agree because addition of extended reals is commutative and associative; no product is distributed over a sum and
  nothing is cancelled, so the inputs' finiteness is never used. The idealization rewrote nothing, so the kernel's
  idealized program is its own text.
-/
import proofs.«122535_j90975997264005_2_alg».proof.Defs
import proofs.«122535_j90975997264005_2_alg».proof.Proof.Gen.Kernel
import proofs.«122535_j90975997264005_2_alg».proof.Proof.Gen.Kernel.Skeleton
import proofs.«122535_j90975997264005_2_alg».proof.Proof.Gen.Kernel.Launch
import proofs.«122535_j90975997264005_2_alg».proof.Proof.Gen.Kernel.Points
import proofs.«122535_j90975997264005_2_alg».proof.Proof.Gen.Kernel.Frame
import proofs.«122535_j90975997264005_2_alg».proof.Proof.Gen.KernelIdeal
import proofs.«122535_j90975997264005_2_alg».proof.Proof.Gen.KernelIdeal.Skeleton
import proofs.«122535_j90975997264005_2_alg».proof.Proof.Gen.KernelIdeal.Launch
import proofs.«122535_j90975997264005_2_alg».proof.Proof.Gen.KernelIdeal.Points
import proofs.«122535_j90975997264005_2_alg».proof.Proof.Gen.KernelIdeal.Frame
import proofs.«122535_j90975997264005_2_alg».proof.Proof.Gen.ReferenceIdeal
import proofs.«122535_j90975997264005_2_alg».proof.Proof.Gen.Pre_finite_inputs
import proofs.«122535_j90975997264005_2_alg».proof.Proof.Gen.KernelIdeal.Value
import proofs.«122535_j90975997264005_2_alg».proof.Proof.Gen.ReferenceIdeal.Run
import proofs.«122535_j90975997264005_2_alg».proof.Proof.Gen.ReferenceIdeal.Read
import proofs.«122535_j90975997264005_2_alg».proof.Proof.KernelAccum
import proofs.«122535_j90975997264005_2_alg».proof.Proof.Reference
import Idealize.ShloMosaic.Adequacy
import Idealize.ShloMosaic.Init

noncomputable section

namespace Cert.Proof

open Idealize.ShloMosaic Idealize.ShloMosaic.TcCoe Idealize.SL.Sem

/-- The kernel, word by word: it terminates and leaves its arguments as they were. -/
theorem frame_kernel [Cert.Kernel.Facts] [Cert.Pre_finite_inputs.Facts] : Cert.frame_Kernel :=
  fun m ρ _ => Cert.Kernel.Gen.frame m ρ

/-- The same of the kernel read over the extended reals. -/
theorem frame_kernel_ideal [Cert.KernelIdeal.Facts] [Cert.Pre_finite_inputs.Facts] : Cert.frame_KernelIdeal :=
  fun m ρ _ => Cert.KernelIdeal.Gen.frame m ρ

/-- The reference is a straight line of host operations: its run, with the result forgotten. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end at the graph convolution of their arguments, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
